-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x256 .f32) (main_arg1 : IVec S2x800000 32) (main_arg2 : FVec F S800000 .f32) (main_arg3 : FVec F S256x128 .f32) (main_arg4 : FVec F S128 .f32) (main_arg5 : FVec F S128x128 .f32) (main_arg6 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S50000x128 : Shape := ⟨2, ![50000, 128]⟩
abbrev S5000x256 : Shape := ⟨2, ![5000, 256]⟩
abbrev S5000x128 : Shape := ⟨2, ![5000, 128]⟩
abbrev S1x128 : Shape := ⟨2, ![1, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩

abbrev nBuf : Space → Nat
  | .hbm => 30
  | .vmem => 12
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S50000x128, .bf16⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .bf16⟩
  | .hbm, ⟨21, _⟩ => ⟨S800000x128, .f32⟩
  | .hbm, ⟨22, _⟩ => ⟨S800000x1, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S128, .f32⟩
  | .local _ .vmem, ⟨4, _⟩ => ⟨S5000x128, .bf16⟩
  | .local _ .vmem, ⟨5, _⟩ => ⟨S5000x128, .bf16⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S50000x128 : Shape := ⟨2, ![50000, 128]⟩
abbrev S1x128 : Shape := ⟨2, ![1, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩

abbrev nBuf : Space → Nat
  | .hbm => 38
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S50000x128, .f32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x1, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.Linear.lean ====
/-
  The two kernel bodies as affine maps, entry by entry, on the extended reals.

  Each body loads a block of rows `x` ([5000, K]), the whole weight matrix `w` ([K, 128]) and the bias `b` ([128]),
  multiplies on the matrix unit into a zero accumulator and adds the bias broadcast over the rows; the second body
  also takes the maximum with zero. On the extended reals a change of float format is the identity, so the roundings
  to bf16 on the way into the product (and, in the first body, on the way out) do not appear: the entry `(p, q)`
  of what the first body stores is `∑ k, x (p, k) · w (k, q) + b q`, and of what the second stores the maximum of
  that sum with zero.
-/
import proofs.«168119_j88330297409788_2_alg».proof.Proof.Gen.KernelIdeal.Skeleton
import proofs.«168119_j88330297409788_2_alg».proof.Proof.LibPlainMatmul
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- The entry `(p, q)` of `x · w + b` (the bias a row vector added to every row), on the extended reals. -/
def affAt {M K N : ℕ} (x : (⟨2, ![M, K]⟩ : Shape).Idx → EReal) (w : (⟨2, ![K, N]⟩ : Shape).Idx → EReal)
    (b : (⟨1, ![N]⟩ : Shape).Idx → EReal) (p : Fin M) (q : Fin N) : EReal :=
  (∑ k : Fin K, x (ix2 p k) * w (ix2 k q)) + b (ix1 q)

/-- The zero of the float format as an extended real, left as its word. -/
abbrev zeroF : EReal := Ideal.ofBits .f32 0x00000000#32

/-- What the first body stores, at `(p, q)`: the affine map of its three loads. -/
theorem pay0_apply (x0 : FVec Ideal S5000x256 .f32) (x1 : FVec Ideal S256x128 .f32) (x2 : FVec Ideal S128 .f32)
    (p : Fin 5000) (q : Fin 128) :
    k0_pay1 (F := Ideal) x0 x1 x2 (ix2 p q) = affAt x0 x1 x2 p q := by
  unfold k0_pay1 affAt
  show FloatOps.matmul (F := Ideal) dot_S5000x256_S256x128_S5000x128_1_0_0_1_n_n none (truncf .bf16 x0 bitsLt_bf16_f32) (truncf .bf16 x1 bitsLt_bf16_f32)
      (constant (F := Ideal) S5000x128 .f32 0x00000000#32) (ix2 p q)
    + broadcastTo S5000x128 (shapeCast S1x128 x2 shapeCasts_S128_S1x128) broadcasts_S1x128_S5000x128 (ix2 p q) = _
  refine congrArg₂ (· + ·) (Cert.LibPlainMatmul.matmul_plain_zero_apply dot_S5000x256_S256x128_S5000x128_1_0_0_1_n_n rfl none _ _ p q) ?_
  exact (broadcastTo_1b_ab_apply _ _ p q).trans (shapeCast_a_1a_apply x2 _ 0 q)

/-- What the second body stores, at `(p, q)`: the affine map of its three loads, cut off below at zero. -/
theorem pay1_apply (x0 : FVec Ideal S5000x128 .f32) (x1 : FVec Ideal S128x128 .f32) (x2 : FVec Ideal S128 .f32)
    (p : Fin 5000) (q : Fin 128) :
    k1_pay1 (F := Ideal) x0 x1 x2 (ix2 p q) = max (affAt x0 x1 x2 p q) zeroF := by
  unfold k1_pay1 affAt
  rw [shapeCast_self]
  show max (FloatOps.matmul (F := Ideal) dot_S5000x128_S128x128_S5000x128_1_0_0_1_n_n none (truncf .bf16 x0 bitsLt_bf16_f32) (truncf .bf16 x1 bitsLt_bf16_f32)
      (constant (F := Ideal) S5000x128 .f32 0x00000000#32) (ix2 p q)
    + broadcastTo S5000x128 (shapeCast S1x128 x2 shapeCasts_S128_S1x128) broadcasts_S1x128_S5000x128 (ix2 p q)) zeroF = _
  refine congrArg (max · zeroF) (congrArg₂ (· + ·) (Cert.LibPlainMatmul.matmul_plain_zero_apply dot_S5000x128_S128x128_S5000x128_1_0_0_1_n_n rfl none _ _ p q) ?_)
  exact (broadcastTo_1b_ab_apply _ _ p q).trans (shapeCast_a_1a_apply x2 _ 0 q)

end Cert.KernelIdeal.Hand

end
-- ==== Proof.Region0.lean ====
/-
  The first region's result array.

  The region runs the first body at ten grid points; point `t` reads rows `5000·t … 5000·t + 4999` of the input
  matrix, the whole weight matrix and the whole bias, and writes back rows `5000·t … 5000·t + 4999` of the result.
  So whatever the region finds in its three input arrays (`V`), what point `t` writes back is block `t` of ONE
  whole-array function of them — the affine map `x · w + b`, entry by entry — and, the ten blocks covering the
  50000 rows, the result array ends holding that function.
-/
import proofs.«168119_j88330297409788_2_alg».proof.Proof.Gen.KernelIdeal.Frame
import proofs.«168119_j88330297409788_2_alg».proof.Proof.Linear

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The whole-array affine map: entry `(r, q)` of `x · w + b`. -/
def lin0 (x : S50000x256.Idx → EReal) (w : S256x128.Idx → EReal) (b : S128.Idx → EReal) : S50000x128.Idx → EReal :=
  fun i => affAt x w b (i 0) (i 1)

/-- The affine map at an index whose coordinates are `r` and `q`. -/
theorem lin0_at (x : S50000x256.Idx → EReal) (w : S256x128.Idx → EReal) (b : S128.Idx → EReal) (i : S50000x128.Idx)
    (r : Fin 50000) (q : Fin 128) (h0 : (i 0).val = r.val) (h1 : (i 1).val = q.val) : lin0 x w b i = affAt x w b r q := by
  have e : i = ix2 r q := funext fun a => Fin.ext (match a with | ⟨0, _⟩ => h0 | ⟨1, _⟩ => h1)
  subst e; rfl

/-- The printed index maps over the ten points: the row-block windows sit at block `t`, the others at block zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of the input block at point `t` is row `5000·t + p` of the input matrix. -/
theorem blk0_x (c : Dev nD) (t : Fin cfg0.N) (p : Fin 5000) (k : Fin 256) (r : Fin 50000) (hr : r.val = t.val * 5000 + p.val) :
    (iblk0 V c 0 t : FVec Ideal S5000x256 .f32) (ix2 p k) = (V c main_arg0 : S50000x256.Idx → EReal) (ix2 r k) := by
  obtain ⟨e0, e1, -⟩ := idx0 t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- The weight block at every point is the weight matrix. -/
theorem blk0_w (c : Dev nD) (t : Fin cfg0.N) (k : Fin 256) (q : Fin 128) :
    (iblk0 V c 1 t : FVec Ideal S256x128 .f32) (ix2 k q) = (V c main_arg3 : S256x128.Idx → EReal) (ix2 k q) := by
  obtain ⟨-, -, e0, e1, -⟩ := idx0 t
  unfold iblk0
  rw [View.read_apply]
  show V c main_arg3 _ = V c main_arg3 _
  refine congrArg (V c main_arg3) ?_
  funext a
  apply Fin.ext
  match a with
  | ⟨0, _⟩ => show win0_1.index t (0 : Fin 2) * 256 + 1 * k.val = k.val; rw [e0]; omega
  | ⟨1, _⟩ => show win0_1.index t (1 : Fin 2) * 128 + 1 * q.val = q.val; rw [e1]; omega

/-- The bias block at every point is the bias. -/
theorem blk0_b (c : Dev nD) (t : Fin cfg0.N) (q : Fin 128) :
    (iblk0 V c 2 t : FVec Ideal S128 .f32) (ix1 q) = (V c main_arg4 : S128.Idx → EReal) (ix1 q) := by
  obtain ⟨-, -, -, -, e0, -⟩ := idx0 t
  unfold iblk0
  rw [View.read_apply]
  show V c main_arg4 _ = V c main_arg4 _
  refine congrArg (V c main_arg4) ?_
  funext a
  apply Fin.ext
  match a with
  | ⟨0, _⟩ => show win0_2.index t (0 : Fin 1) * 128 + 1 * q.val = q.val; rw [e0]; omega

/-- What point `t` writes back is block `t` of the affine map of the region's input arrays. -/
theorem flushed0 (c : Dev nD) (t : Fin cfg0.N) :
    (dat0 V c).flushed 3 t = ((cfg0.win 3).blk t).view.read (Elt Ideal) (lin0 (V c main_arg0) (V c main_arg3) (V c main_arg4)) := by
  show (cfg0.win 3).cut (grid0.coords t) ((dat0 V c).after 3 t) = _
  rw [after0_3]
  unfold out0_3
  rw [View.canon_unit_zero hz2]
  simp only [View.ld_unit_zero (S := S5000x256) hz2, View.ld_unit_zero (S := S256x128) hz2, View.ld_unit_zero (S := S128) hz1]
  funext j
  obtain ⟨p, q, rfl⟩ : ∃ (p : Fin 5000) (q : Fin 128), j = ix2 p q := ⟨j 0, j 1, eq_ix2 j⟩
  obtain ⟨-, -, -, -, -, e0, e1⟩ := idx0 t
  have ht : t.val < 10 := lt_of_lt_of_eq t.isLt N_0
  have hp : p.val < 5000 := p.isLt
  rw [View.read_apply]
  show k0_pay1 (F := Ideal) (iblk0 V c 0 t) (iblk0 V c 1 t) (iblk0 V c 2 t) (ix2 p q) = _
  refine ((pay0_apply _ _ _ p q).trans ?_).trans
    (lin0_at _ _ _ _ ⟨t.val * 5000 + p.val, by omega⟩ q ?_ ?_).symm
  · unfold affAt
    exact congrArg₂ (· + ·) (Finset.sum_congr rfl fun k _ => congrArg₂ (· * ·) (blk0_x V c t p k _ rfl) (blk0_w V c t k q))
      (blk0_b V c t q)
  · show win0_3.index t (0 : Fin 2) * 5000 + 1 * p.val = t.val * 5000 + p.val
    rw [e0]; omega
  · show win0_3.index t (1 : Fin 2) * 128 + 1 * q.val = q.val
    rw [e1]; omega

/-- An index of the result array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- The result array after the region: the affine map of the input arrays (row `r` is in the block of point `r / 5000`). -/
theorem arr0 (c : Dev nD) :
    (dat0 V c).arrAt 3 cfg0.N = lin0 (V c main_arg0) (V c main_arg3) (V c main_arg4) :=
  (dat0 V c).arrAt_eq_of_cover 3 _ (fun t _ => flushed0 V c t) (fun i => by
    have h0 : (i 0).val < 50000 := (i 0).isLt
    have h1 : (i 1).val < 128 := (i 1).isLt
    have hN : (i 0).val / 5000 < cfg0.N := by rw [show cfg0.N = 10 from N_0]; omega
    refine ⟨⟨(i 0).val / 5000, hN⟩, flush0_3 _, ?_⟩
    rw [mem_blk0]
    obtain ⟨-, -, -, -, -, e0, e1⟩ := idx0 ⟨(i 0).val / 5000, hN⟩
    intro a
    match a with
    | ⟨0, _⟩ =>
      show win0_3.index ⟨(i 0).val / 5000, hN⟩ (0 : Fin 2) * 5000 ≤ (i 0).val ∧ (i 0).val < win0_3.index ⟨(i 0).val / 5000, hN⟩ (0 : Fin 2) * 5000 + 5000
      rw [e0]; show (i 0).val / 5000 * 5000 ≤ (i 0).val ∧ (i 0).val < (i 0).val / 5000 * 5000 + 5000; omega
    | ⟨1, _⟩ =>
      show win0_3.index ⟨(i 0).val / 5000, hN⟩ (1 : Fin 2) * 128 ≤ (i 1).val ∧ (i 1).val < win0_3.index ⟨(i 0).val / 5000, hN⟩ (1 : Fin 2) * 128 + 128
      rw [e1]; omega)

end Cert.KernelIdeal.Hand

end
-- ==== Proof.Region1.lean ====
/-
  The second region's result array.

  The region runs the second body at ten grid points; point `t` reads rows `5000·t … 5000·t + 4999` of the
  aggregated matrix, the whole second weight matrix and the whole second bias, and writes back the same rows of the
  result. What point `t` writes back is block `t` of one whole-array function of the region's input arrays — the
  affine map `x · w + b` cut off below at zero, entry by entry — and the ten blocks cover the 50000 rows.
-/
import proofs.«168119_j88330297409788_2_alg».proof.Proof.Gen.KernelIdeal.Frame
import proofs.«168119_j88330297409788_2_alg».proof.Proof.Linear
import proofs.«168119_j88330297409788_2_alg».proof.Proof.Region0

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The whole-array map: entry `(r, q)` of `max (x · w + b) 0`. -/
def lin1 (x : S50000x128.Idx → EReal) (w : S128x128.Idx → EReal) (b : S128.Idx → EReal) : S50000x128.Idx → EReal :=
  fun i => max (affAt x w b (i 0) (i 1)) zeroF

/-- That map at an index whose coordinates are `r` and `q`. -/
theorem lin1_at (x : S50000x128.Idx → EReal) (w : S128x128.Idx → EReal) (b : S128.Idx → EReal) (i : S50000x128.Idx)
    (r : Fin 50000) (q : Fin 128) (h0 : (i 0).val = r.val) (h1 : (i 1).val = q.val) :
    lin1 x w b i = max (affAt x w b r q) zeroF := by
  have e : i = ix2 r q := funext fun a => Fin.ext (match a with | ⟨0, _⟩ => h0 | ⟨1, _⟩ => h1)
  subst e; rfl

/-- The printed index maps over the ten points: the row-block windows sit at block `t`, the others at block zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row `p` of the input block at point `t` is row `5000·t + p` of the aggregated matrix. -/
theorem blk1_x (c : Dev nD) (t : Fin cfg1.N) (p : Fin 5000) (k : Fin 128) (r : Fin 50000) (hr : r.val = t.val * 5000 + p.val) :
    (iblk1 V c 0 t : FVec Ideal S5000x128 .f32) (ix2 p k) = (V c main_v18 : S50000x128.Idx → EReal) (ix2 r k) := by
  obtain ⟨e0, e1, -⟩ := idx1 t
  unfold iblk1
  rw [View.read_apply]
  show V c main_v18 _ = V c main_v18 _
  refine congrArg (V c main_v18) ?_
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The weight block at every point is the second weight matrix. -/
theorem blk1_w (c : Dev nD) (t : Fin cfg1.N) (k : Fin 128) (q : Fin 128) :
    (iblk1 V c 1 t : FVec Ideal S128x128 .f32) (ix2 k q) = (V c main_arg5 : S128x128.Idx → EReal) (ix2 k q) := by
  obtain ⟨-, -, e0, e1, -⟩ := idx1 t
  unfold iblk1
  rw [View.read_apply]
  show V c main_arg5 _ = V c main_arg5 _
  refine congrArg (V c main_arg5) ?_
  funext a
  apply Fin.ext
  match a with
  | ⟨0, _⟩ => show win1_1.index t (0 : Fin 2) * 128 + 1 * k.val = k.val; rw [e0]; omega
  | ⟨1, _⟩ => show win1_1.index t (1 : Fin 2) * 128 + 1 * q.val = q.val; rw [e1]; omega

/-- The bias block at every point is the second bias. -/
theorem blk1_b (c : Dev nD) (t : Fin cfg1.N) (q : Fin 128) :
    (iblk1 V c 2 t : FVec Ideal S128 .f32) (ix1 q) = (V c main_arg6 : S128.Idx → EReal) (ix1 q) := by
  obtain ⟨-, -, -, -, e0, -⟩ := idx1 t
  unfold iblk1
  rw [View.read_apply]
  show V c main_arg6 _ = V c main_arg6 _
  refine congrArg (V c main_arg6) ?_
  funext a
  apply Fin.ext
  match a with
  | ⟨0, _⟩ => show win1_2.index t (0 : Fin 1) * 128 + 1 * q.val = q.val; rw [e0]; omega

/-- What point `t` writes back is block `t` of that map of the region's input arrays. -/
theorem flushed1 (c : Dev nD) (t : Fin cfg1.N) :
    (dat1 V c).flushed 3 t = ((cfg1.win 3).blk t).view.read (Elt Ideal) (lin1 (V c main_v18) (V c main_arg5) (V c main_arg6)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  obtain ⟨-, -, -, -, -, e0, e1⟩ := idx1 t
  have ht : t.val < 10 := lt_of_lt_of_eq t.isLt N_1
  have hp : p.val < 5000 := p.isLt
  rw [View.read_apply]
  show k1_pay1 (F := Ideal) (iblk1 V c 0 t) (iblk1 V c 1 t) (iblk1 V c 2 t) (ix2 p q) = _
  refine ((pay1_apply _ _ _ p q).trans ?_).trans
    (lin1_at _ _ _ _ ⟨t.val * 5000 + p.val, by omega⟩ q ?_ ?_).symm
  · unfold affAt
    exact congrArg (max · zeroF) (congrArg₂ (· + ·) (Finset.sum_congr rfl fun k _ => congrArg₂ (· * ·) (blk1_x V c t p k _ rfl) (blk1_w V c t k q))
      (blk1_b V c t q))
  · show win1_3.index t (0 : Fin 2) * 5000 + 1 * p.val = t.val * 5000 + p.val
    rw [e0]; omega
  · show win1_3.index t (1 : Fin 2) * 128 + 1 * q.val = q.val
    rw [e1]; omega

/-- An index of the result array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v19).slice (win1_3.rect t)).set ↔ _
  rw [View.set_slice_whole, Rect.mem_set_unit]
  exact Iff.rfl

/-- The result array after the region: that map of the input arrays (row `r` is in the block of point `r / 5000`). -/
theorem arr1 (c : Dev nD) :
    (dat1 V c).arrAt 3 cfg1.N = lin1 (V c main_v18) (V c main_arg5) (V c main_arg6) :=
  (dat1 V c).arrAt_eq_of_cover 3 _ (fun t _ => flushed1 V c t) (fun i => by
    have h0 : (i 0).val < 50000 := (i 0).isLt
    have h1 : (i 1).val < 128 := (i 1).isLt
    have hN : (i 0).val / 5000 < cfg1.N := by rw [show cfg1.N = 10 from N_1]; omega
    refine ⟨⟨(i 0).val / 5000, hN⟩, flush1_3 _, ?_⟩
    rw [mem_blk1]
    obtain ⟨-, -, -, -, -, e0, e1⟩ := idx1 ⟨(i 0).val / 5000, hN⟩
    intro a
    match a with
    | ⟨0, _⟩ =>
      show win1_3.index ⟨(i 0).val / 5000, hN⟩ (0 : Fin 2) * 5000 ≤ (i 0).val ∧ (i 0).val < win1_3.index ⟨(i 0).val / 5000, hN⟩ (0 : Fin 2) * 5000 + 5000
      rw [e0]; show (i 0).val / 5000 * 5000 ≤ (i 0).val ∧ (i 0).val < (i 0).val / 5000 * 5000 + 5000; omega
    | ⟨1, _⟩ =>
      show win1_3.index ⟨(i 0).val / 5000, hN⟩ (1 : Fin 2) * 128 ≤ (i 1).val ∧ (i 1).val < win1_3.index ⟨(i 0).val / 5000, hN⟩ (1 : Fin 2) * 128 + 128
      rw [e1]; omega)

end Cert.KernelIdeal.Hand

end
-- ==== Proof.KernelRun.lean ====
/-
  The kernel program's run, read as a value.

  The program is: region one (the projection `x = features · W_proj + b_proj`, stored in a narrower float format), a
  stretch of host operations (the rows of `x` gathered at the edges' source nodes, scaled by the edge weights and
  added into the rows of their destination nodes), region two (`max (agg · W_agg + b_agg) 0`). Each boundary's
  buffer contents are a fold from the launch memory; here the fold is read at the result buffer: region two's result
  array is its map of what the host stretch left, the host stretch's result is ONE function `agg` of region one's
  result array and the two edge arguments, and region one's result array is its map of the arguments. The host
  stretch is kept as that one function and never opened.
-/
import proofs.«168119_j88330297409788_2_alg».proof.Proof.Gen.KernelIdeal.Frame
import proofs.«168119_j88330297409788_2_alg».proof.Proof.Region0
import proofs.«168119_j88330297409788_2_alg».proof.Proof.Region1
import Idealize.ShloMosaic.Lib.StableHlo.Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- Row 0 of the edge list as a vector: the edges' source nodes. -/
abbrev srcOf (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- Row 1 of the edge list as a vector: the edges' destination nodes. -/
abbrev dstOf (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- The host stretch between the regions as one function: the rows of `x` gathered at the source nodes (a negative
    node number counted from the end), each scaled by its edge's weight, added into the zero matrix at the rows of the
    destination nodes. -/
def agg (x : (⟨S50000x128, .bf16⟩ : BufTy).Contents (Elt Ideal)) (ei : (⟨S2x800000, .i32⟩ : BufTy).Contents (Elt Ideal))
    (ew : (⟨S800000, .f32⟩ : BufTy).Contents (Elt Ideal)) : (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 (dstOf ei))
    (mulf (F := Ideal)
      (extf (F := Ideal) .f32 (Host.gather gather_S50000x128_S800000x1_S800000x128_1_0_n_n_0_1_1128 x
        (broadcastInDim S800000x1 ![0] bcast_S800000_S800000x1_0
          (select (cmpi .slt (srcOf ei) (broadcastInDim S800000 ![] bcast_S_S800000 (constantI S_ 32 0#32)))
            (addi (srcOf ei) (broadcastInDim S800000 ![] bcast_S_S800000 (constantI S_ 32 50000#32)))
            (srcOf ei)))) bitsLt_bf16_f32)
      (broadcastInDim S800000x128 ![0, 1] bcast_S800000x1_S800000x128_0_1
        (broadcastInDim S800000x1 ![0] bcast_S800000_S800000x1_0 ew)))

/-- What the host stretch leaves in the aggregated matrix's buffer: `agg` of what region one left. -/
theorem W2_v18 (c : Dev nD) :
    W2 m ρ c (Proc.devRef .tc main_v18)
      = agg (W1 m ρ c (Proc.devRef .tc main_v0)) (W1 m ρ c (Proc.devRef .tc main_arg1)) (W1 m ρ c (Proc.devRef .tc main_arg2)) := by
  show StableHlo.after hostOps1 (W1 m ρ c) (Proc.devRef .tc main_v18) = _
  after_results
  rfl

/-- The host stretch writes neither the second weight matrix nor the second bias. -/
theorem W2_arg5 (c : Dev nD) : W2 m ρ c (Proc.devRef .tc main_arg5) = W1 m ρ c (Proc.devRef .tc main_arg5) := by
  show StableHlo.after hostOps1 (W1 m ρ c) (Proc.devRef .tc main_arg5) = _
  after_results
theorem W2_arg6 (c : Dev nD) : W2 m ρ c (Proc.devRef .tc main_arg6) = W1 m ρ c (Proc.devRef .tc main_arg6) := by
  show StableHlo.after hostOps1 (W1 m ρ c) (Proc.devRef .tc main_arg6) = _
  after_results

/-- Region one leaves its map of the arguments in the projection's buffer. -/
theorem W1_v0 (c : Dev nD) :
    W1 m ρ c (Proc.devRef .tc main_v0)
      = lin0 (m ((c : Thread nD τ).loc main_arg0)) (m ((c : Thread nD τ).loc main_arg3)) (m ((c : Thread nD τ).loc main_arg4)) :=
  (W1_arr m ρ c 3).trans (arr0 (V0 m ρ) c)

/-- Region one writes none of the other arguments. -/
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg5 (c : Dev nD) : W1 m ρ c (Proc.devRef .tc main_arg5) = m ((c : Thread nD τ).loc main_arg5) :=
  W1_of_ne m ρ c main_arg5 (by decide)
theorem W1_arg6 (c : Dev nD) : W1 m ρ c (Proc.devRef .tc main_arg6) = m ((c : Thread nD τ).loc main_arg6) :=
  W1_of_ne m ρ c main_arg6 (by decide)

/-- The whole program as one function of its seven arguments. -/
def kval (a0 : (⟨S50000x256, .f32⟩ : BufTy).Contents (Elt Ideal)) (a1 : (⟨S2x800000, .i32⟩ : BufTy).Contents (Elt Ideal))
    (a2 : (⟨S800000, .f32⟩ : BufTy).Contents (Elt Ideal)) (a3 : (⟨S256x128, .f32⟩ : BufTy).Contents (Elt Ideal))
    (a4 : (⟨S128, .f32⟩ : BufTy).Contents (Elt Ideal)) (a5 : (⟨S128x128, .f32⟩ : BufTy).Contents (Elt Ideal))
    (a6 : (⟨S128, .f32⟩ : BufTy).Contents (Elt Ideal)) : (⟨S50000x128, .f32⟩ : BufTy).Contents (Elt Ideal) :=
  lin1 (agg (lin0 a0 a3 a4) a1 a2) a5 a6

/-- The result buffer at the last boundary holds that function of the launch contents of the arguments. -/
theorem W3_v19 (c : Dev nD) :
    W3 m ρ c (Proc.devRef .tc main_v19)
      = kval (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine ((W3_arr m ρ c 3).trans (arr1 (V2 m ρ) c)).trans ?_
  show lin1 (W2 m ρ c (Proc.devRef .tc main_v18)) (W2 m ρ c (Proc.devRef .tc main_arg5)) (W2 m ρ c (Proc.devRef .tc main_arg6)) = _
  rw [W2_v18, W2_arg5, W2_arg6, W1_v0, W1_arg1, W1_arg2, W1_arg5, W1_arg6]
  rfl

set_option backward.isDefEq.respectTransparency.types false in
/-- THE RUN, READ: every weakly fair execution of the program terminates, nothing faulting, with the result buffer at
    `kval` of the arguments' launch contents and the arguments as launched. The launch over the program's segments, the
    last thread state (every unscoped buffer at the last boundary's contents) read against the final memory. -/
theorem run : θ_run defs (onTc (τ := τ) (main (F := Ideal))) ⟨m, fun _ => 0, ρ⟩ (fun r => ∀ c : Dev nD,
      r.2.mem ((c.tc : Thread nD τ).loc main_v19)
        = kval (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v19 (by decide))).trans (W3_v19 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Hand

end
-- ==== Proof.RefValue.lean ====
/-
  The reference computes the same function.

  The reference is the same pipeline on the host alone: `x = features · W_proj + b_proj`, the same gather at the source
  nodes, the same scaling by the edge weights, the same scatter-add at the destination nodes, then
  `max (agg · W_agg + b_agg) 0`. Read at an index, its two products are the sums over the contracted axis that the
  kernel's two regions compute block by block, so its projection IS the first region's whole-array map; the host
  stretch is then the kernel program's own, applied to the same matrix (the kernel's widening of the gathered rows back
  from the narrower format is the identity on the extended reals); and its last stage is the second region's map.
  No algebraic law beyond these identifications is used, and nothing here needs the inputs to be finite.
-/
import proofs.«168119_j88330297409788_2_alg».proof.Proof.Gen.ReferenceIdeal.Read
import proofs.«168119_j88330297409788_2_alg».proof.Proof.KernelRun

noncomputable section

open scoped BigOperators

namespace Cert.Bridge

open Idealize.ShloMosaic Idealize.ShloMosaic.ValueIdx
open Cert.ReferenceIdeal Cert.ReferenceIdeal.Read
open Cert.KernelIdeal.Hand (lin0 lin1 agg kval affAt zeroF)

/-- The reference's projection, bias added, is the first region's whole-array map of the same three arguments. -/
theorem proj_eq (x0 : (⟨S50000x256, .f32⟩ : BufTy).Contents (Elt Ideal)) (x3 : (⟨S256x128, .f32⟩ : BufTy).Contents (Elt Ideal))
    (x4 : (⟨S128, .f32⟩ : BufTy).Contents (Elt Ideal)) :
    val_main_v3 (F := Ideal) x0 x3 x4 = lin0 x0 x3 x4 := by
  funext i
  rw [val_main_v3_apply, val_main_v0_apply, val_main_v2_apply, val_main_v1_apply]
  have el : ∀ k : Fin 256, lidx_main_v0 i k = ix2 (i 0) k := fun k => funext fun a => Fin.ext (by
    match a with | ⟨0, _⟩ => rfl | ⟨1, _⟩ => rfl)
  have er : ∀ k : Fin 256, ridx_main_v0 i k = ix2 k (i 1) := fun k => funext fun a => Fin.ext (by
    match a with | ⟨0, _⟩ => rfl | ⟨1, _⟩ => rfl)
  have eb : idx_main_v1 (idx_main_v2 i) = ix1 (i 1) := funext fun a => Fin.ext (by
    match a with | ⟨0, _⟩ => rfl)
  simp only [el, er, eb]
  rfl

/-- The reference's aggregated matrix is the kernel program's host stretch applied to that map. -/
theorem agg_eq (x0 : (⟨S50000x256, .f32⟩ : BufTy).Contents (Elt Ideal)) (x1 : (⟨S2x800000, .i32⟩ : BufTy).Contents (Elt Ideal))
    (x2 : (⟨S800000, .f32⟩ : BufTy).Contents (Elt Ideal)) (x3 : (⟨S256x128, .f32⟩ : BufTy).Contents (Elt Ideal))
    (x4 : (⟨S128, .f32⟩ : BufTy).Contents (Elt Ideal)) :
    val_main_v20 (F := Ideal) x0 x1 x2 x3 x4 = agg (lin0 x0 x3 x4) x1 x2 := by
  unfold val_main_v20 val_main_v17 val_main_v14
  rw [proj_eq]
  rfl

/-- The reference's result is the kernel program's function of the seven arguments. -/
theorem ref_eq (x0 : (⟨S50000x256, .f32⟩ : BufTy).Contents (Elt Ideal)) (x1 : (⟨S2x800000, .i32⟩ : BufTy).Contents (Elt Ideal))
    (x2 : (⟨S800000, .f32⟩ : BufTy).Contents (Elt Ideal)) (x3 : (⟨S256x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) :
    val_main_v25 (F := Ideal) x0 x1 x2 x3 x4 x5 x6 = kval x0 x1 x2 x3 x4 x5 x6 := by
  funext i
  rw [val_main_v25_apply, val_main_v24_apply, val_main_v21_apply, val_main_v23_apply, val_main_v22_apply,
    val_main_call0_v0_apply, val_main_call0_cst_apply, agg_eq]
  have el : ∀ k : Fin 128, lidx_main_v21 i k = ix2 (i 0) k := fun k => funext fun a => Fin.ext (by
    match a with | ⟨0, _⟩ => rfl | ⟨1, _⟩ => rfl)
  have er : ∀ k : Fin 128, ridx_main_v21 i k = ix2 k (i 1) := fun k => funext fun a => Fin.ext (by
    match a with | ⟨0, _⟩ => rfl | ⟨1, _⟩ => rfl)
  have eb : idx_main_v22 (idx_main_v23 i) = ix1 (i 1) := funext fun a => Fin.ext (by
    match a with | ⟨0, _⟩ => rfl)
  simp only [el, er, eb]
  rfl

end Cert.Bridge

end
-- ==== Proof.lean ====
/-
  The certificate: a two-layer graph branch — a dense projection, an edge-weighted gather and scatter-add over the
  graph, a dense output layer with a cut-off at zero — computed by two row-blocked matrix-unit kernels around host
  operations, against the same pipeline written with plain host operations.

  On the extended reals both programs are one function of the seven arguments: with
  `x = features · W_proj + b_proj` (entry `(r, q)` the sum over `k` of `features (r, k) · W_proj (k, q)`, plus
  `b_proj q`), `agg` the matrix whose row `d` is the sum over the edges `e` with destination `d` of
  `weight e · x (source e)`, the result is `max (agg · W_agg + b_agg) 0`. The kernels compute the two products 5000
  rows at a time and round to a narrower float format on the way into the matrix unit; neither changes an extended
  real. The gather, the scaling and the scatter-add are the same host operations in both programs and are carried as
  one function, unopened. The frames are the generated ones (the reference's is its generated run with the result
  dropped); the idealization rewrote nothing, so there is nothing to preserve.
-/
import proofs.«168119_j88330297409788_2_alg».proof.Defs
import proofs.«168119_j88330297409788_2_alg».proof.Proof.Gen.Kernel
import proofs.«168119_j88330297409788_2_alg».proof.Proof.Gen.Kernel.Skeleton
import proofs.«168119_j88330297409788_2_alg».proof.Proof.Gen.Kernel.Launch
import proofs.«168119_j88330297409788_2_alg».proof.Proof.Gen.Kernel.Points
import proofs.«168119_j88330297409788_2_alg».proof.Proof.Gen.Kernel.Frame
import proofs.«168119_j88330297409788_2_alg».proof.Proof.Gen.KernelIdeal
import proofs.«168119_j88330297409788_2_alg».proof.Proof.Gen.KernelIdeal.Skeleton
import proofs.«168119_j88330297409788_2_alg».proof.Proof.Gen.KernelIdeal.Launch
import proofs.«168119_j88330297409788_2_alg».proof.Proof.Gen.KernelIdeal.Points
import proofs.«168119_j88330297409788_2_alg».proof.Proof.Gen.KernelIdeal.Frame
import proofs.«168119_j88330297409788_2_alg».proof.Proof.Gen.ReferenceIdeal
import proofs.«168119_j88330297409788_2_alg».proof.Proof.Gen.ReferenceIdeal.Run
import proofs.«168119_j88330297409788_2_alg».proof.Proof.Gen.ReferenceIdeal.Read
import proofs.«168119_j88330297409788_2_alg».proof.Proof.Gen.Pre_finite_inputs
import proofs.«168119_j88330297409788_2_alg».proof.Proof.KernelRun
import proofs.«168119_j88330297409788_2_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the seven arguments both programs end with the result array at the same function of
    them: the kernel program by its run read as a value, the reference by its run read stage by stage. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v25_eq, Cert.Bridge.ref_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
